-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1024x1024 : Shape := ⟨2, ![1024, 1024]⟩
abbrev S1024 : Shape := ⟨1, ![1024]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8192x4096 .f32) (main_arg1 : FVec F S1024x1024 .f32) (main_arg2 : FVec F S1024x1024 .f32) (main_arg3 : FVec F S1024x1024 .f32) (main_arg4 : FVec F S1024x1024 .f32) (main_arg5 : FVec F S1024 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S8192x4096 : Shape := ⟨2, ![8192, 4096]⟩
abbrev S1024x1024 : Shape := ⟨2, ![1024, 1024]⟩
abbrev S1024 : Shape := ⟨1, ![1024]⟩
abbrev S1x1024 : Shape := ⟨2, ![1, 1024]⟩
abbrev S256x4096 : Shape := ⟨2, ![256, 4096]⟩
abbrev S256x1024 : Shape := ⟨2, ![256, 1024]⟩

abbrev nBuf : Space → Nat
  | .hbm => 16
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1x1024, .f32⟩
  | .hbm, ⟨15, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S256x4096, .f32⟩
  | .local _ .vmem, ⟨8, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S256x4096_S256x1024_0_0 : ∀ a, (![0, 0] : Fin 2 → Nat) a + S256x1024.size a ≤ S256x4096.size a
  h_S256x1024 : 0 < S256x1024.numel
  broadcasts_S1x1024_S256x1024 : S1x1024.Broadcasts S256x1024
  inb_S256x4096_S256x1024_0_1024 : ∀ a, (![0, 1024] : Fin 2 → Nat) a + S256x1024.size a ≤ S256x4096.size a
  inb_S256x4096_S256x1024_0_2048 : ∀ a, (![0, 2048] : Fin 2 → Nat) a + S256x1024.size a ≤ S256x4096.size a
  inb_S256x4096_S256x1024_0_3072 : ∀ a, (![0, 3072] : Fin 2 → Nat) a + S256x1024.size a ≤ S256x4096.size a
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x4096.size a ≤ S8192x4096.size a
  hwx0_6 : ∀ i : grid0.Coords, EltTy.bits .f32 = 32 ∨ (Rect.block (s := S8192x4096) S256x4096.size (cc0_transform_6 i) (hinb0_6 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S256x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S1024x1024 : Shape := ⟨2, ![1024, 1024]⟩
abbrev S1024 : Shape := ⟨1, ![1024]⟩
abbrev S8192x4x1024 : Shape := ⟨3, ![8192, 4, 1024]⟩
abbrev S4x8192x1024 : Shape := ⟨3, ![4, 8192, 1024]⟩
abbrev S1x1x1024 : Shape := ⟨3, ![1, 1, 1024]⟩
abbrev S1x8192x1024 : Shape := ⟨3, ![1, 8192, 1024]⟩
abbrev S8192x1024 : Shape := ⟨2, ![8192, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S8192x4x1024, .f32⟩
  | .hbm, ⟨7, _⟩ => ⟨S4x8192x1024, .f32⟩
  | .hbm, ⟨8, _⟩ => ⟨S4x8192x1024, .f32⟩
  | .hbm, ⟨9, _⟩ => ⟨S1x1x1024, .f32⟩
  | .hbm, ⟨10, _⟩ => ⟨S4x8192x1024, .f32⟩
  | .hbm, ⟨11, _⟩ => ⟨S4x8192x1024, .f32⟩
  | .hbm, ⟨12, _⟩ => ⟨S4x8192x1024, .f32⟩
  | .hbm, ⟨13, _⟩ => ⟨S4x8192x1024, .f32⟩
  | .hbm, ⟨14, _⟩ => ⟨S4x8192x1024, .f32⟩
  | .hbm, ⟨15, _⟩ => ⟨S1x8192x1024, .f32⟩
  | .hbm, ⟨16, _⟩ => ⟨S8192x1024, .f32⟩
  | .hbm, ⟨17, _⟩ => ⟨S1x8192x1024, .f32⟩
  | .hbm, ⟨18, _⟩ => ⟨S8192x1024, .f32⟩
  | .hbm, ⟨19, _⟩ => ⟨S8192x1024, .f32⟩
  | .hbm, ⟨20, _⟩ => ⟨S1x8192x1024, .f32⟩
  | .hbm, ⟨21, _⟩ => ⟨S8192x1024, .f32⟩
  | .hbm, ⟨22, _⟩ => ⟨S8192x1024, .f32⟩
  | .hbm, ⟨23, _⟩ => ⟨S1x8192x1024, .f32⟩
  | .hbm, ⟨24, _⟩ => ⟨S8192x1024, .f32⟩
  | .hbm, ⟨25, _⟩ => ⟨S8192x1024, .f32⟩
  | .hbm, ⟨26, _⟩ => ⟨S1x8192x1024, .f32⟩
  | .hbm, ⟨27, _⟩ => ⟨S8192x1024, .f32⟩
  | .hbm, ⟨28, _⟩ => ⟨S1x8192x1024, .f32⟩
  | .hbm, ⟨29, _⟩ => ⟨S8192x1024, .f32⟩
  | .hbm, ⟨30, _⟩ => ⟨S8192x1024, .f32⟩
  | .hbm, ⟨31, _⟩ => ⟨S1x8192x1024, .f32⟩
  | .hbm, ⟨32, _⟩ => ⟨S8192x1024, .f32⟩
  | .hbm, ⟨33, _⟩ => ⟨S8192x1024, .f32⟩
  | .hbm, ⟨34, _⟩ => ⟨S1x8192x1024, .f32⟩
  | .hbm, ⟨35, _⟩ => ⟨S8192x1024, .f32⟩
  | .hbm, ⟨36, _⟩ => ⟨S8192x1024, .f32⟩
  | .hbm, ⟨37, _⟩ => ⟨S1x8192x1024, .f32⟩
  | .hbm, ⟨38, _⟩ => ⟨S8192x1024, .f32⟩
  | .hbm, ⟨39, _⟩ => ⟨S1x8192x1024, .f32⟩
  | .hbm, ⟨40, _⟩ => ⟨S8192x1024, .f32⟩
  | .hbm, ⟨41, _⟩ => ⟨S8192x1024, .f32⟩
  | .hbm, ⟨42, _⟩ => ⟨S1x8192x1024, .f32⟩
  | .hbm, ⟨43, _⟩ => ⟨S8192x1024, .f32⟩
  | .hbm, ⟨44, _⟩ => ⟨S8192x1024, .f32⟩
  | .hbm, ⟨45, _⟩ => ⟨S1x8192x1024, .f32⟩
  | .hbm, ⟨46, _⟩ => ⟨S8192x1024, .f32⟩
  | .hbm, ⟨47, _⟩ => ⟨S8192x1024, .f32⟩
  | .hbm, ⟨48, _⟩ => ⟨S1x8192x1024, .f32⟩
  | .hbm, ⟨49, _⟩ => ⟨S8192x1024, .f32⟩
  | .hbm, ⟨50, _⟩ => ⟨S1x8192x1024, .f32⟩
  | .hbm, ⟨51, _⟩ => ⟨S8192x1024, .f32⟩
  | .hbm, ⟨52, _⟩ => ⟨S8192x1024, .f32⟩
  | .hbm, ⟨53, _⟩ => ⟨S1x8192x1024, .f32⟩
  | .hbm, ⟨54, _⟩ => ⟨S8192x1024, .f32⟩
  | .hbm, ⟨55, _⟩ => ⟨S8192x1024, .f32⟩
  | .hbm, ⟨56, _⟩ => ⟨S1x8192x1024, .f32⟩
  | .hbm, ⟨57, _⟩ => ⟨S8192x1024, .f32⟩
  | .hbm, ⟨58, _⟩ => ⟨S8192x1024, .f32⟩
  | .hbm, ⟨59, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩

abbrev nD : Nat := 1
abbrev τ : Topo := Topo.v7x

variable {F : FTy → Type} [FloatOps F]

class Facts₀ : Prop where
  shapeCasts_S8192x4096_S8192x4x1024 : S8192x4096.ShapeCasts S8192x4x1024
  transposes_S8192x4x1024_S4x8192x1024_1_0_2 : S8192x4x1024.Transposes [1, 0, 2] S4x8192x1024
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)
  slices_S4x8192x1024_S1x8192x1024_0_0_0 : S4x8192x1024.Slices ![0, 0, 0] S1x8192x1024
  shapeCasts_S1x8192x1024_S8192x1024 : S1x8192x1024.ShapeCasts S8192x1024
  slices_S4x8192x1024_S1x8192x1024_1_0_0 : S4x8192x1024.Slices ![1, 0, 0] S1x8192x1024
  slices_S4x8192x1024_S1x8192x1024_2_0_0 : S4x8192x1024.Slices ![2, 0, 0] S1x8192x1024
  slices_S4x8192x1024_S1x8192x1024_3_0_0 : S4x8192x1024.Slices ![3, 0, 0] S1x8192x1024
  concatenates_S8192x1024_S8192x1024_S8192x1024_S8192x1024_S8192x4096_d1 : Shape.Concatenates [S8192x1024, S8192x1024, S8192x1024, S8192x1024] S8192x4096 1
  dot_S4x8192x1024_S1024x1024_S4x8192x1024_2_1_01_0_n_n_wf : DotDims.WF S4x8192x1024 S1024x1024 S4x8192x1024 [2] [1] [0, 1] [0] [] []

variable [Facts₀]

def dot_S4x8192x1024_S1024x1024_S4x8192x1024_2_1_01_0_n_n : DotDims S4x8192x1024 S1024x1024 S4x8192x1024 where
  lhsContracting := [2]
  rhsContracting := [1]
  lhsNonContracting := [0, 1]
  rhsNonContracting := [0]
  lhsBatch := []
  rhsBatch := []
  wf := dot_S4x8192x1024_S1024x1024_S4x8192x1024_2_1_01_0_n_n_wf

class Facts : Prop extends Facts₀ where

variable [Facts]
-- ==== Proof.Spec.lean ====
/-
  The function both programs compute, stated over plain index types.

  The 4096 input features of a row are four quarters of 1024, the components of a quaternion-valued
  vector: feature `c * 1024 + k` is component `c` of entry `k`. Each of the four weight matrices `W` (1024 × 1024)
  acts on one quarter as a linear map, `lin x W c o = ∑ k, x (c * 1024 + k) * W o k`; the real-part map also adds
  the bias. The output row is again four quarters, the components of the Hamilton product
  of the weight quaternion `(Wr, Wi, Wj, Wk)` with the input quaternion:

    quarter 0:  Rr 0 − Ri 1 − Rj 2 − Rk 3
    quarter 1:  Ri 0 + Rr 1 + Rk 2 − Rj 3
    quarter 2:  Rj 0 − Rk 1 + Rr 2 + Ri 3
    quarter 3:  Rk 0 + Rj 1 − Ri 2 + Rr 3

  with `Rr c = lin x Wr c + b`, `Ri c = lin x Wi c`, `Rj c = lin x Wj c`, `Rk c = lin x Wk c`, every sum and difference taken left to right
  on the extended reals. `G` is the [8192, 4096] array of these rows.
-/
import Idealize.ShloMosaic.PureOps.Ideal
import Idealize.ShloMosaic.Lib.ValueIdx

noncomputable section

namespace Cert.Hamilton

open Idealize.ShloMosaic Idealize.ShloMosaic.ValueIdx

/-- Feature `c * 1024 + k`: entry `k` of the quarter `c` of a row. -/
def col (c : Fin 4) (k : Fin 1024) : Fin 4096 :=
  ⟨c.val * 1024 + k.val, by have hc : c.val < 4 := c.isLt; have hk : k.val < 1024 := k.isLt; omega⟩

theorem col_val (c : Fin 4) (k : Fin 1024) : (col c k).val = c.val * 1024 + k.val := rfl

/-- One weight matrix applied to quarter `c` of the row `x`, at output entry `o`. -/
def lin (x : Fin 4096 → EReal) (w : Fin 1024 → Fin 1024 → EReal) (c : Fin 4) (o : Fin 1024) : EReal :=
  ∑ k : Fin 1024, x (col c k) * w o k

/-- The four quarters, by name. -/
abbrev q0 : Fin 4 := ⟨0, by decide⟩
abbrev q1 : Fin 4 := ⟨1, by decide⟩
abbrev q2 : Fin 4 := ⟨2, by decide⟩
abbrev q3 : Fin 4 := ⟨3, by decide⟩

/-- Entry `o` of quarter `q` of the output row: the component `q` of the Hamilton product, left to right. -/
def comp (x : Fin 4096 → EReal) (wr wi wj wk : Fin 1024 → Fin 1024 → EReal) (b : Fin 1024 → EReal)
    (q : Fin 4) (o : Fin 1024) : EReal :=
  match q with
  | ⟨0, _⟩ => lin x wr q0 o + b o - lin x wi q1 o - lin x wj q2 o - lin x wk q3 o
  | ⟨1, _⟩ => lin x wi q0 o + (lin x wr q1 o + b o) + lin x wk q2 o - lin x wj q3 o
  | ⟨2, _⟩ => lin x wj q0 o - lin x wk q1 o + (lin x wr q2 o + b o) + lin x wi q3 o
  | ⟨3, _⟩ => lin x wk q0 o + lin x wj q1 o - lin x wi q2 o + (lin x wr q3 o + b o)

section
variable (x : Fin 4096 → EReal) (wr wi wj wk : Fin 1024 → Fin 1024 → EReal) (b : Fin 1024 → EReal) (o : Fin 1024)
theorem comp_q0 : comp x wr wi wj wk b q0 o = lin x wr q0 o + b o - lin x wi q1 o - lin x wj q2 o - lin x wk q3 o := rfl
theorem comp_q1 : comp x wr wi wj wk b q1 o = lin x wi q0 o + (lin x wr q1 o + b o) + lin x wk q2 o - lin x wj q3 o := rfl
theorem comp_q2 : comp x wr wi wj wk b q2 o = lin x wj q0 o - lin x wk q1 o + (lin x wr q2 o + b o) + lin x wi q3 o := rfl
theorem comp_q3 : comp x wr wi wj wk b q3 o = lin x wk q0 o + lin x wj q1 o - lin x wi q2 o + (lin x wr q3 o + b o) := rfl
end

/-- The quarter a feature lies in, and its entry within the quarter. -/
def quarter (n : Fin 4096) : Fin 4 := ⟨n.val / 1024, by have h : n.val < 4096 := n.isLt; omega⟩
def entry (n : Fin 4096) : Fin 1024 := ⟨n.val % 1024, Nat.mod_lt _ (by decide)⟩

theorem quarter_of (n : Fin 4096) (q : Fin 4) (o : Fin 1024) (h : n.val = q.val * 1024 + o.val) : quarter n = q :=
  Fin.ext (by show n.val / 1024 = q.val; have ho : o.val < 1024 := o.isLt; omega)

theorem entry_of (n : Fin 4096) (q : Fin 4) (o : Fin 1024) (h : n.val = q.val * 1024 + o.val) : entry n = o :=
  Fin.ext (by show n.val % 1024 = o.val; have ho : o.val < 1024 := o.isLt; omega)

/-- The whole result: row `j 0`, feature `j 1`, from the input array, the four weight matrices (`W o k`) and the bias. -/
def G (X : (⟨2, ![8192, 4096]⟩ : Shape).Idx → EReal) (Wr Wi Wj Wk : (⟨2, ![1024, 1024]⟩ : Shape).Idx → EReal)
    (b : (⟨1, ![1024]⟩ : Shape).Idx → EReal) : (⟨2, ![8192, 4096]⟩ : Shape).Idx → EReal := fun j =>
  comp (fun n => X (ix2 (j 0) n)) (fun o k => Wr (ix2 o k)) (fun o k => Wi (ix2 o k)) (fun o k => Wj (ix2 o k))
    (fun o k => Wk (ix2 o k)) (fun o => b (ix1 o)) (quarter (j 1)) (entry (j 1))

/-- `G` at a feature known to be entry `o` of quarter `q`. -/
theorem G_at (X : (⟨2, ![8192, 4096]⟩ : Shape).Idx → EReal) (Wr Wi Wj Wk : (⟨2, ![1024, 1024]⟩ : Shape).Idx → EReal)
    (b : (⟨1, ![1024]⟩ : Shape).Idx → EReal) (j : (⟨2, ![8192, 4096]⟩ : Shape).Idx) (r : Fin 8192) (q : Fin 4) (o : Fin 1024)
    (hr : (j 0).val = r.val) (h : (j 1).val = q.val * 1024 + o.val) :
    G X Wr Wi Wj Wk b j = comp (fun n => X (ix2 r n)) (fun o k => Wr (ix2 o k)) (fun o k => Wi (ix2 o k))
      (fun o k => Wj (ix2 o k)) (fun o k => Wk (ix2 o k)) (fun o => b (ix1 o)) q o := by
  have e0 : j 0 = r := Fin.ext hr
  unfold G
  rw [quarter_of (j 1) q o h, entry_of (j 1) q o h, e0]

end Cert.Hamilton

end
-- ==== Proof.Body.lean ====
/-
  The kernel's body, read at an index: the [256, 4096] block it leaves in the output window is, row by row, the
  Hamilton product of the specification (`Cert.Hamilton.comp`) applied to the 256 rows of the input block.

  The body loads the four weight blocks (each the weight matrix transposed, `w (k, o) = W (o, k)`) and the bias row
  once, then for each quarter `c` of the input block (columns `c * 1024 …`) forms the four products with the weight
  blocks — sixteen products in all, each into a zero accumulator — and adds or subtracts them into four running sums
  that start at zero; the four sums are stored side by side. Rounding the operands to bf16 is the identity on the
  extended reals, `0 + x = x` there, and each product at `(p, o)` is the sum over `k` of the quarter at `(p, k)`
  times `W (o, k)`: the linear map `lin` of the specification. The order of the additions and subtractions is the
  specification's, so no algebra beyond `0 + x = x` is used.
-/
import proofs.«144773_j16252156248077_2_alg».proof.Proof.Gen.KernelIdeal.Frame
import proofs.«144773_j16252156248077_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Body

open Cert.KernelIdeal Cert.KernelIdeal.Gen Idealize.ShloMosaic Idealize.ShloMosaic.ValueIdx Cert.Hamilton

/-- In the [256, 1024] by [1024, 1024] product, the row of the left operand is the row of the result, -/
theorem lhs_row (i : S256x1024.Idx) (q : dot_S256x1024_S1024x1024_S256x1024_1_0_0_1_n_n.contr.Idx) : (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide),
    dif_pos (show (0 : Fin S256x1024.rank) ∈ dot_S256x1024_S1024x1024_S256x1024_1_0_0_1_n_n.lhsNonContracting by decide)]
  rfl
/-- its column the contracted coordinate, -/
theorem lhs_col (i : S256x1024.Idx) (q : dot_S256x1024_S1024x1024_S256x1024_1_0_0_1_n_n.contr.Idx) : (dot_S256x1024_S1024x1024_S256x1024_1_0_0_1_n_n.lhsIdx i q 1).val = (q ⟨0, by decide⟩).val :=
  dot_S256x1024_S1024x1024_S256x1024_1_0_0_1_n_n.lhsIdx_val_of_single rfl i q
/-- which is also the row of the right operand, -/
theorem rhs_row (i : S256x1024.Idx) (q : dot_S256x1024_S1024x1024_S256x1024_1_0_0_1_n_n.contr.Idx) : (dot_S256x1024_S1024x1024_S256x1024_1_0_0_1_n_n.rhsIdx i q 0).val = (q ⟨0, by decide⟩).val :=
  dot_S256x1024_S1024x1024_S256x1024_1_0_0_1_n_n.rhsIdx_val_of_single rfl i q
/-- whose column is the column of the result. -/
theorem rhs_col (i : S256x1024.Idx) (q : dot_S256x1024_S1024x1024_S256x1024_1_0_0_1_n_n.contr.Idx) : (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide),
    dif_pos (show (1 : Fin S1024x1024.rank) ∈ dot_S256x1024_S1024x1024_S256x1024_1_0_0_1_n_n.rhsNonContracting by decide)]
  rfl

/-- A [256, 1024] by [1024, 1024] product into the zero accumulator, at row `p`, column `o`: the sum over the
    contracted coordinate `k` of the left operand at `(p, k)` times the right operand at `(k, o)`. -/
theorem mm_apply (A : FVec Ideal S256x1024 .bf16) (B : FVec Ideal S1024x1024 .bf16) (p : Fin 256) (o : Fin 1024) :
    matmul dot_S256x1024_S1024x1024_S256x1024_1_0_0_1_n_n none A B (constant (F := Ideal) S256x1024 .f32 0x00000000#32) (ix2 p o)
      = ∑ k : Fin 1024, A (ix2 p k) * B (ix2 k o) := by
  simp only [matmul]
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 p o) ((ValueIdx.contrEquiv1 dot_S256x1024_S1024x1024_S256x1024_1_0_0_1_n_n 1024 rfl rfl).symm k) = ix2 p k :=
    funext fun a => Fin.ext (by
      match a with
      | ⟨0, _⟩ => exact lhs_row _ _
      | ⟨1, _⟩ => exact (lhs_col _ _).trans hk)
  have er : dot_S256x1024_S1024x1024_S256x1024_1_0_0_1_n_n.rhsIdx (ix2 p o) ((ValueIdx.contrEquiv1 dot_S256x1024_S1024x1024_S256x1024_1_0_0_1_n_n 1024 rfl rfl).symm k) = ix2 k o :=
    funext fun a => Fin.ext (by
      match a with
      | ⟨0, _⟩ => exact (rhs_row _ _).trans hk
      | ⟨1, _⟩ => exact rhs_col _ _)
  rw [el, er]

/-! ## The loads of the body -/

theorem zeros2 : (![0, 0] : Fin 2 → Nat) = fun _ => 0 := funext fun a => by fin_cases a <;> rfl

/-- The four loads of the input block read its four quarters: the load at column offset `c * 1024`, at `(p, k)`, is the block at
    row `p`, feature `c * 1024 + k`. -/
theorem ld_q0 (x0 : Vec Ideal S256x4096 .f32) (p : Fin 256) (k : Fin 1024) : View.ld x0 r0_2 (ix2 p k) = x0 (ix2 p (col q0 k)) :=
  congrArg x0 (funext fun a => Fin.ext (by
    match a with
    | ⟨0, _⟩ => show (0 : Nat) + 1 * p.val = p.val; omega
    | ⟨1, _⟩ => show (0 : Nat) + 1 * k.val = 0 * 1024 + k.val; omega))
theorem ld_q1 (x0 : Vec Ideal S256x4096 .f32) (p : Fin 256) (k : Fin 1024) : View.ld x0 r0_3 (ix2 p k) = x0 (ix2 p (col q1 k)) :=
  congrArg x0 (funext fun a => Fin.ext (by
    match a with
    | ⟨0, _⟩ => show (0 : Nat) + 1 * p.val = p.val; omega
    | ⟨1, _⟩ => show (1024 : Nat) + 1 * k.val = 1 * 1024 + k.val; omega))
theorem ld_q2 (x0 : Vec Ideal S256x4096 .f32) (p : Fin 256) (k : Fin 1024) : View.ld x0 r0_4 (ix2 p k) = x0 (ix2 p (col q2 k)) :=
  congrArg x0 (funext fun a => Fin.ext (by
    match a with
    | ⟨0, _⟩ => show (0 : Nat) + 1 * p.val = p.val; omega
    | ⟨1, _⟩ => show (2048 : Nat) + 1 * k.val = 2 * 1024 + k.val; omega))
theorem ld_q3 (x0 : Vec Ideal S256x4096 .f32) (p : Fin 256) (k : Fin 1024) : View.ld x0 r0_5 (ix2 p k) = x0 (ix2 p (col q3 k)) :=
  congrArg x0 (funext fun a => Fin.ext (by
    match a with
    | ⟨0, _⟩ => show (0 : Nat) + 1 * p.val = p.val; omega
    | ⟨1, _⟩ => show (3072 : Nat) + 1 * k.val = 3 * 1024 + k.val; omega))

/-! ## One product of the body: a quarter of the input rows against one weight block -/

/-- The product of the quarter `c` of the input block (rounded to bf16, the identity on the extended reals) with a
    whole weight block `w` (stored transposed: `w (k, o)`), into the zero accumulator, at `(p, o)`: the linear map of
    the specification, applied to row `p` of the block. -/
theorem mm_quarter (x0 : Vec Ideal S256x4096 .f32) (w : Vec Ideal S1024x1024 .bf16) (xc : Vec Ideal S256x1024 .f32) (c : Fin 4)
    (hxc : ∀ (p : Fin 256) (k : Fin 1024), xc (ix2 p k) = x0 (ix2 p (col c k))) (p : Fin 256) (o : Fin 1024) :
    matmul dot_S256x1024_S1024x1024_S256x1024_1_0_0_1_n_n none (truncf .bf16 xc bitsLt_bf16_f32 : FVec Ideal S256x1024 .bf16)
        (shapeCast S1024x1024 w shapeCasts_S1024x1024_S1024x1024 : FVec Ideal S1024x1024 .bf16)
        (constant (F := Ideal) S256x1024 .f32 0x00000000#32) (ix2 p o)
      = lin (fun n => x0 (ix2 p n)) (fun o k => w (ix2 k o)) c o := by
  rw [mm_apply]
  unfold lin
  refine Finset.sum_congr rfl fun k _ => ?_
  rw [truncf_apply, hxc, shapeCast_self]

/-- The bias row, broadcast down the 256 rows of the block, at `(p, o)`: the bias at `o`. -/
theorem bias_apply (x5 : Vec Ideal S1x1024 .f32) (p : Fin 256) (o : Fin 1024) :
    broadcastTo S256x1024 (shapeCast S1x1024 x5 shapeCasts_S1x1024_S1x1024 : FVec Ideal S1x1024 .f32) broadcasts_S1x1024_S256x1024 (ix2 p o)
      = x5 (ix2 0 o) := by
  rw [shapeCast_self]
  exact broadcastTo_apply x5 broadcasts_S1x1024_S256x1024 (ix2 p o) (ix2 0 o) (fun a => match a with
    | ⟨0, _⟩ => by show 0 = if (1 : Nat) = 1 then 0 else p.val; rw [if_pos rfl]
    | ⟨1, _⟩ => by show o.val = if (1024 : Nat) = 1 then 0 else o.val; rw [if_neg (by decide)])

/-- The zero the four running sums start from. -/
theorem zero_apply : (Scalar.ofBits (F := Ideal) .f32 0x00000000#32 : EReal) = 0 := Ideal.ofBits_zero_f32

/-! ## The four stores -/

section
variable (x0 : Vec Ideal S256x4096 .f32) (x1 x2 x3 x4 : Vec Ideal S1024x1024 .bf16) (x5 : Vec Ideal S1x1024 .f32)
  (p : Fin 256) (o : Fin 1024)

/-- The first store (columns 0–1023 of the output block) holds quarter 0 of the Hamilton product of row `p`. -/
theorem store_q0 :
    k0_pay3 (k0_pay9 (View.ld x3 r0_0)) (k0_pay10 (View.ld x4 r0_0)) (k0_pay13 (View.ld x1 r0_0) (View.ld x5 r0_1) (View.ld x0 r0_2))
        (k0_pay19 (View.ld x2 r0_0) (View.ld x0 r0_3)) (View.ld x0 r0_4) (View.ld x0 r0_5) (ix2 p o)
      = comp (fun n => x0 (ix2 p n)) (fun o k => x1 (ix2 k o)) (fun o k => x2 (ix2 k o)) (fun o k => x3 (ix2 k o))
          (fun o k => x4 (ix2 k o)) (fun o => x5 (ix2 0 o)) q0 o := by
  rw [comp_q0]
  simp only [k0_pay3, k0_pay9, k0_pay10, k0_pay13, k0_pay19, k0_pay1, k0_pay2, k0_pay7, k0_pay8, k0_pay11, k0_pay12, k0_pay17]
  simp only [View.ld_unit_zero (S := S1024x1024) zeros2, View.ld_unit_zero (S := S1x1024) zeros2]
  simp only [subf_apply, addf_apply, broadcast_apply]
  rw [mm_quarter x0 x1 _ q0 (ld_q0 x0) p o, mm_quarter x0 x2 _ q1 (ld_q1 x0) p o, mm_quarter x0 x3 _ q2 (ld_q2 x0) p o,
    mm_quarter x0 x4 _ q3 (ld_q3 x0) p o, bias_apply, zero_apply, zero_add]

/-- The second store (columns 1024–2047) holds quarter 1. -/
theorem store_q1 :
    k0_pay4 (k0_pay9 (View.ld x3 r0_0)) (k0_pay10 (View.ld x4 r0_0)) (k0_pay14 (View.ld x2 r0_0) (View.ld x0 r0_2))
        (k0_pay18 (View.ld x1 r0_0) (View.ld x5 r0_1) (View.ld x0 r0_3)) (View.ld x0 r0_4) (View.ld x0 r0_5) (ix2 p o)
      = comp (fun n => x0 (ix2 p n)) (fun o k => x1 (ix2 k o)) (fun o k => x2 (ix2 k o)) (fun o k => x3 (ix2 k o))
          (fun o k => x4 (ix2 k o)) (fun o => x5 (ix2 0 o)) q1 o := by
  rw [comp_q1]
  simp only [k0_pay4, k0_pay9, k0_pay10, k0_pay13, k0_pay14, k0_pay15, k0_pay16, k0_pay18, k0_pay19, k0_pay20, k0_pay1, k0_pay2, k0_pay7, k0_pay8, k0_pay11, k0_pay12, k0_pay17]
  simp only [View.ld_unit_zero (S := S1024x1024) zeros2, View.ld_unit_zero (S := S1x1024) zeros2]
  simp only [subf_apply, addf_apply, broadcast_apply]
  rw [mm_quarter x0 x2 _ q0 (ld_q0 x0) p o, mm_quarter x0 x1 _ q1 (ld_q1 x0) p o, mm_quarter x0 x4 _ q2 (ld_q2 x0) p o,
    mm_quarter x0 x3 _ q3 (ld_q3 x0) p o, bias_apply, zero_apply, zero_add]

/-- The third store (columns 2048–3071) holds quarter 2. -/
theorem store_q2 :
    k0_pay5 (k0_pay7 (View.ld x1 r0_0)) (k0_pay8 (View.ld x2 r0_0)) (k0_pay10 (View.ld x4 r0_0)) (k0_pay11 (View.ld x5 r0_1))
        (k0_pay15 (View.ld x3 r0_0) (View.ld x0 r0_2)) (k0_pay17 (View.ld x0 r0_3)) (constant S256x1024 .f32 0x00000000#32)
        (View.ld x0 r0_4) (View.ld x0 r0_5) (ix2 p o)
      = comp (fun n => x0 (ix2 p n)) (fun o k => x1 (ix2 k o)) (fun o k => x2 (ix2 k o)) (fun o k => x3 (ix2 k o))
          (fun o k => x4 (ix2 k o)) (fun o => x5 (ix2 0 o)) q2 o := by
  rw [comp_q2]
  simp only [k0_pay5, k0_pay9, k0_pay10, k0_pay13, k0_pay14, k0_pay15, k0_pay16, k0_pay18, k0_pay19, k0_pay20, k0_pay1, k0_pay2, k0_pay7, k0_pay8, k0_pay11, k0_pay12, k0_pay17]
  simp only [View.ld_unit_zero (S := S1024x1024) zeros2, View.ld_unit_zero (S := S1x1024) zeros2]
  simp only [subf_apply, addf_apply, broadcast_apply]
  rw [mm_quarter x0 x3 _ q0 (ld_q0 x0) p o, mm_quarter x0 x4 _ q1 (ld_q1 x0) p o, mm_quarter x0 x1 _ q2 (ld_q2 x0) p o,
    mm_quarter x0 x2 _ q3 (ld_q3 x0) p o, bias_apply, zero_apply, zero_add]

/-- The fourth store (columns 3072–4095) holds quarter 3. -/
theorem store_q3 :
    k0_pay6 (k0_pay7 (View.ld x1 r0_0)) (k0_pay8 (View.ld x2 r0_0)) (k0_pay11 (View.ld x5 r0_1)) (k0_pay16 (View.ld x4 r0_0) (View.ld x0 r0_2))
        (k0_pay20 (View.ld x3 r0_0) (View.ld x0 r0_3)) (View.ld x0 r0_4) (View.ld x0 r0_5) (ix2 p o)
      = comp (fun n => x0 (ix2 p n)) (fun o k => x1 (ix2 k o)) (fun o k => x2 (ix2 k o)) (fun o k => x3 (ix2 k o))
          (fun o k => x4 (ix2 k o)) (fun o => x5 (ix2 0 o)) q3 o := by
  rw [comp_q3]
  simp only [k0_pay6, k0_pay9, k0_pay10, k0_pay13, k0_pay14, k0_pay15, k0_pay16, k0_pay18, k0_pay19, k0_pay20, k0_pay1, k0_pay2, k0_pay7, k0_pay8, k0_pay11, k0_pay12, k0_pay17]
  simp only [View.ld_unit_zero (S := S1024x1024) zeros2, View.ld_unit_zero (S := S1x1024) zeros2]
  simp only [subf_apply, addf_apply, broadcast_apply]
  rw [mm_quarter x0 x4 _ q0 (ld_q0 x0) p o, mm_quarter x0 x3 _ q1 (ld_q1 x0) p o, mm_quarter x0 x2 _ q2 (ld_q2 x0) p o,
    mm_quarter x0 x1 _ q3 (ld_q3 x0) p o, bias_apply, zero_apply, zero_add]

end

/-! ## The whole output block -/

/-- What the body leaves in the [256, 4096] output block, as one function of the input block (256 rows of the
    input), the four weight blocks (each stored transposed) and the bias row: at row `y 0`, feature `y 1`, the
    Hamilton product of that row. -/
def blockFn (x0 : Vec Ideal S256x4096 .f32) (x1 x2 x3 x4 : Vec Ideal S1024x1024 .bf16) (x5 : Vec Ideal S1x1024 .f32) :
    Vec Ideal S256x4096 .f32 := fun y =>
  comp (fun n => x0 (ix2 (y 0) n)) (fun o k => x1 (ix2 k o)) (fun o k => x2 (ix2 k o)) (fun o k => x3 (ix2 k o))
    (fun o k => x4 (ix2 k o)) (fun o => x5 (ix2 0 o)) (quarter (y 1)) (entry (y 1))

theorem blockFn_at (x0 : Vec Ideal S256x4096 .f32) (x1 x2 x3 x4 : Vec Ideal S1024x1024 .bf16) (x5 : Vec Ideal S1x1024 .f32)
    (y : S256x4096.Idx) (p : Fin 256) (q : Fin 4) (o : Fin 1024) (hp : (y 0).val = p.val) (h : (y 1).val = q.val * 1024 + o.val) :
    blockFn x0 x1 x2 x3 x4 x5 y = comp (fun n => x0 (ix2 p n)) (fun o k => x1 (ix2 k o)) (fun o k => x2 (ix2 k o))
      (fun o k => x3 (ix2 k o)) (fun o k => x4 (ix2 k o)) (fun o => x5 (ix2 0 o)) q o := by
  have e0 : y 0 = p := Fin.ext hp
  unfold blockFn
  rw [quarter_of (y 1) q o h, entry_of (y 1) q o h, e0]

/-- The four stores are the four quarters of `blockFn`, and they tile the block: the block after the body is `blockFn`. -/
theorem out_eq_blockFn (x0 : Vec Ideal S256x4096 .f32) (x1 x2 x3 x4 : Vec Ideal S1024x1024 .bf16) (x5 : Vec Ideal S1x1024 .f32) :
    out0_6 x0 x1 x2 x3 x4 x5 = blockFn x0 x1 x2 x3 x4 x5 := by
  funext y
  unfold out0_6
  refine View.canon_apply_of_pieces (Val := Elt Ideal) (blockFn x0 x1 x2 x3 x4 x5) _ ?_ y (cover0_6 _ _ _ _ y)
  intro pc hpc x
  simp only [List.mem_cons, List.not_mem_nil, or_false] at hpc
  rcases hpc with rfl | rfl | rfl | rfl
  · obtain ⟨p, o, rfl⟩ : ∃ (p : Fin 256) (o : Fin 1024), x = ix2 p o := ⟨x 0, x 1, eq_ix2 x⟩
    show k0_pay6 _ _ _ _ _ _ _ (ix2 p o) = _
    rw [store_q3, blockFn_at x0 x1 x2 x3 x4 x5 (r0_5.emb (ix2 p o)) p q3 o (by show (0 : Nat) + 1 * p.val = p.val; omega)
      (by show (3072 : Nat) + 1 * o.val = 3 * 1024 + o.val; omega)]
  · obtain ⟨p, o, rfl⟩ : ∃ (p : Fin 256) (o : Fin 1024), x = ix2 p o := ⟨x 0, x 1, eq_ix2 x⟩
    show k0_pay5 _ _ _ _ _ _ _ _ _ (ix2 p o) = _
    rw [store_q2, blockFn_at x0 x1 x2 x3 x4 x5 (r0_4.emb (ix2 p o)) p q2 o (by show (0 : Nat) + 1 * p.val = p.val; omega)
      (by show (2048 : Nat) + 1 * o.val = 2 * 1024 + o.val; omega)]
  · obtain ⟨p, o, rfl⟩ : ∃ (p : Fin 256) (o : Fin 1024), x = ix2 p o := ⟨x 0, x 1, eq_ix2 x⟩
    show k0_pay4 _ _ _ _ _ _ (ix2 p o) = _
    rw [store_q1, blockFn_at x0 x1 x2 x3 x4 x5 (r0_3.emb (ix2 p o)) p q1 o (by show (0 : Nat) + 1 * p.val = p.val; omega)
      (by show (1024 : Nat) + 1 * o.val = 1 * 1024 + o.val; omega)]
  · obtain ⟨p, o, rfl⟩ : ∃ (p : Fin 256) (o : Fin 1024), x = ix2 p o := ⟨x 0, x 1, eq_ix2 x⟩
    show k0_pay3 _ _ _ _ _ _ (ix2 p o) = _
    rw [store_q0, blockFn_at x0 x1 x2 x3 x4 x5 (r0_2.emb (ix2 p o)) p q0 o (by show (0 : Nat) + 1 * p.val = p.val; omega)
      (by show (0 : Nat) + 1 * o.val = 0 * 1024 + o.val; omega)]

/-- A block of `G`. If the input block is rows `T * 256 …` of the array `X`, the weight blocks are the weight
    matrices transposed and the bias row is the bias, then the output block at `y` is `G` at row `T * 256 + y 0`,
    feature `y 1`. -/
theorem blockFn_eq_G (X : S8192x4096.Idx → EReal) (Wr Wi Wj Wk : S1024x1024.Idx → EReal) (b : S1024.Idx → EReal)
    (x0 : Vec Ideal S256x4096 .f32) (x1 x2 x3 x4 : Vec Ideal S1024x1024 .bf16) (x5 : Vec Ideal S1x1024 .f32)
    (T : Nat) (hT : T < 32)
    (h0 : ∀ (p : Fin 256) (n : Fin 4096), x0 (ix2 p n) = X (ix2 (⟨T * 256 + p.val, by have hp : p.val < 256 := p.isLt; omega⟩ : Fin 8192) n))
    (h1 : ∀ (k o : Fin 1024), x1 (ix2 k o) = Wr (ix2 o k)) (h2 : ∀ (k o : Fin 1024), x2 (ix2 k o) = Wi (ix2 o k))
    (h3 : ∀ (k o : Fin 1024), x3 (ix2 k o) = Wj (ix2 o k)) (h4 : ∀ (k o : Fin 1024), x4 (ix2 k o) = Wk (ix2 o k))
    (h5 : ∀ o : Fin 1024, x5 (ix2 0 o) = b (ix1 o))
    (y : S256x4096.Idx) (j : S8192x4096.Idx) (hj0 : (j 0).val = T * 256 + (y 0).val) (hj1 : (j 1).val = (y 1).val) :
    blockFn x0 x1 x2 x3 x4 x5 y = G X Wr Wi Wj Wk b j := by
  obtain ⟨p, n, rfl⟩ : ∃ (p : Fin 256) (n : Fin 4096), y = ix2 p n := ⟨y 0, y 1, eq_ix2 y⟩
  have hn : n.val = (quarter n).val * 1024 + (entry n).val := by
    show n.val = n.val / 1024 * 1024 + n.val % 1024
    omega
  rw [blockFn_at x0 x1 x2 x3 x4 x5 (ix2 p n) p (quarter n) (entry n) rfl hn,
    G_at X Wr Wi Wj Wk b j (⟨T * 256 + p.val, by have hp : p.val < 256 := p.isLt; omega⟩ : Fin 8192) (quarter n) (entry n) hj0
      (hj1.trans hn)]
  simp only [h0, h1, h2, h3, h4, h5]

end Cert.KernelIdeal.Body

end
-- ==== Proof.Whole.lean ====
/-
  From blocks to the array. The grid has 32 points; point `t` reads rows `t * 256 … t * 256 + 255` of the input, the
  four transposed weight matrices and the bias row (the same whole blocks at every point), and writes back rows
  `t * 256 …` of the result. Each written block is the matching block of `G` (the body's block function, read
  through the blocks' positions), the 32 blocks cover the [8192, 4096] array, so after the run the result array is `G`
  of the argument arrays.

  Before the region the host transposes each weight matrix (and rounds it to bf16, the identity on the extended
  reals) and views the bias as a [1, 1024] row; these are read off the host operations' composed term.
-/
import proofs.«144773_j16252156248077_2_alg».proof.Proof.Gen.KernelIdeal.Value
import proofs.«144773_j16252156248077_2_alg».proof.Proof.Body
import Idealize.ShloMosaic.Lib.StableHlo.Run

set_option maxRecDepth 16384

noncomputable section

namespace Cert.KernelIdeal.Whole

open Cert.KernelIdeal Cert.KernelIdeal.Gen Cert.KernelIdeal.Body Idealize.ShloMosaic Idealize.ShloMosaic.TcCoe Idealize.SL.Sem
open Idealize.ShloMosaic.ValueIdx Idealize.ShloMosaic.StableHlo Cert.Hamilton
open Idealize.ShloMosaic.Pipeline (Dat)

variable (m : (ℓ : Loc nD τ sig) → Buf (Elt Ideal) ℓ) (ρ : Dev nD → PrngReg)

/-! ## Where each window's block sits -/

/-- The printed index maps over the 32 grid points: the input and output blocks are block row `t`, block column 0;
    the weight and bias blocks are block (0, 0). -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 32 := lt_of_lt_of_eq t.isLt N_0

/-! ## The arrays the region finds -/

/-- A transposed, rounded weight matrix at `(k, o)` is the weight matrix at `(o, k)`. -/
theorem transposed_apply (W : S1024x1024.Idx → EReal) (k o : Fin 1024) :
    (truncf .bf16 (transpose S1024x1024 [1, 0] W transposes_S1024x1024_S1024x1024_1_0 : FVec Ideal S1024x1024 .f32) bitsLt_bf16_f32
      : FVec Ideal S1024x1024 .bf16) (ix2 k o) = W (ix2 o k) := by
  rw [truncf_apply]
  exact transpose_apply [1, 0] W transposes_S1024x1024_S1024x1024_1_0 (ix2 k o) (ix2 o k) (fun b => match b with
    | ⟨0, _⟩ => rfl
    | ⟨1, _⟩ => rfl)

theorem V_wr (c : Dev nD) (k o : Fin 1024) : (V m c main_v1 : S1024x1024.Idx → EReal) (ix2 k o) = (m ((c : Thread nD τ).loc main_arg1) : S1024x1024.Idx → EReal) (ix2 o k) := by
  have e : (V m c main_v1 : S1024x1024.Idx → EReal)
      = (truncf .bf16 (transpose S1024x1024 [1, 0] (m ((c : Thread nD τ).loc main_arg1) : S1024x1024.Idx → EReal) transposes_S1024x1024_S1024x1024_1_0 : FVec Ideal S1024x1024 .f32) bitsLt_bf16_f32 : FVec Ideal S1024x1024 .bf16) := by
    dsimp only [Gen.V, Gen.hostOps0]; after_results
  rw [e, transposed_apply]

theorem V_wi (c : Dev nD) (k o : Fin 1024) : (V m c main_v3 : S1024x1024.Idx → EReal) (ix2 k o) = (m ((c : Thread nD τ).loc main_arg2) : S1024x1024.Idx → EReal) (ix2 o k) := by
  have e : (V m c main_v3 : S1024x1024.Idx → EReal)
      = (truncf .bf16 (transpose S1024x1024 [1, 0] (m ((c : Thread nD τ).loc main_arg2) : S1024x1024.Idx → EReal) transposes_S1024x1024_S1024x1024_1_0 : FVec Ideal S1024x1024 .f32) bitsLt_bf16_f32 : FVec Ideal S1024x1024 .bf16) := by
    dsimp only [Gen.V, Gen.hostOps0]; after_results
  rw [e, transposed_apply]

theorem V_wj (c : Dev nD) (k o : Fin 1024) : (V m c main_v5 : S1024x1024.Idx → EReal) (ix2 k o) = (m ((c : Thread nD τ).loc main_arg3) : S1024x1024.Idx → EReal) (ix2 o k) := by
  have e : (V m c main_v5 : S1024x1024.Idx → EReal)
      = (truncf .bf16 (transpose S1024x1024 [1, 0] (m ((c : Thread nD τ).loc main_arg3) : S1024x1024.Idx → EReal) transposes_S1024x1024_S1024x1024_1_0 : FVec Ideal S1024x1024 .f32) bitsLt_bf16_f32 : FVec Ideal S1024x1024 .bf16) := by
    dsimp only [Gen.V, Gen.hostOps0]; after_results
  rw [e, transposed_apply]

theorem V_wk (c : Dev nD) (k o : Fin 1024) : (V m c main_v7 : S1024x1024.Idx → EReal) (ix2 k o) = (m ((c : Thread nD τ).loc main_arg4) : S1024x1024.Idx → EReal) (ix2 o k) := by
  have e : (V m c main_v7 : S1024x1024.Idx → EReal)
      = (truncf .bf16 (transpose S1024x1024 [1, 0] (m ((c : Thread nD τ).loc main_arg4) : S1024x1024.Idx → EReal) transposes_S1024x1024_S1024x1024_1_0 : FVec Ideal S1024x1024 .f32) bitsLt_bf16_f32 : FVec Ideal S1024x1024 .bf16) := by
    dsimp only [Gen.V, Gen.hostOps0]; after_results
  rw [e, transposed_apply]

/-- The bias viewed as a row, at `(0, o)`, is the bias at `o`. -/
theorem V_b (c : Dev nD) (o : Fin 1024) : (V m c main_v8 : S1x1024.Idx → EReal) (ix2 0 o) = (m ((c : Thread nD τ).loc main_arg5) : S1024.Idx → EReal) (ix1 o) := by
  have e : (V m c main_v8 : S1x1024.Idx → EReal)
      = shapeCast S1x1024 (m ((c : Thread nD τ).loc main_arg5) : S1024.Idx → EReal) shapeCasts_S1024_S1x1024 := by
    dsimp only [Gen.V, Gen.hostOps0]; after_results; rfl
  rw [e]
  exact shapeCast_apply _ shapeCasts_S1024_S1x1024 (ix2 0 o) (ix1 o) (by
    rw [Shape.rowMajor_val_one, Shape.rowMajor_val_two]
    show o.val = 0 * 1024 + o.val
    omega)

/-! ## The windows' blocks at a point -/

theorem iblk_x (c : Dev nD) (t : Fin cfg0.N) (p : Fin 256) (n : Fin 4096) :
    iblk m c 0 t (ix2 p n) = (m ((c : Thread nD τ).loc main_arg0) : S8192x4096.Idx → EReal)
      (ix2 (⟨t.val * 256 + p.val, by have ht := point_lt t; have hp : p.val < 256 := p.isLt; omega⟩ : Fin 8192) n) := by
  obtain ⟨e0, e1, -⟩ := block_positions t
  show V m c main_arg0 (((cfg0.win 0).blk t).view.emb (ix2 p n)) = _
  rw [V_main_arg0]
  refine congrArg _ (funext fun a => Fin.ext ?_)
  match a with
  | ⟨0, _⟩ => show win0_0.index t (0 : Fin 2) * 256 + 1 * p.val = t.val * 256 + p.val; rw [e0]; omega
  | ⟨1, _⟩ => show win0_0.index t (1 : Fin 2) * 4096 + 1 * n.val = n.val; rw [e1]; omega

theorem iblk_wr (c : Dev nD) (t : Fin cfg0.N) (k o : Fin 1024) :
    iblk m c 1 t (ix2 k o) = (m ((c : Thread nD τ).loc main_arg1) : S1024x1024.Idx → EReal) (ix2 o k) := by
  obtain ⟨-, -, e0, e1, -⟩ := block_positions t
  show V m c main_v1 (((cfg0.win 1).blk t).view.emb (ix2 k o)) = _
  have h : ((cfg0.win 1).blk t).view.emb (ix2 k o) = ix2 k o := funext fun a => Fin.ext (by
    match a with
    | ⟨0, _⟩ => show win0_1.index t (0 : Fin 2) * 1024 + 1 * k.val = k.val; rw [e0]; omega
    | ⟨1, _⟩ => show win0_1.index t (1 : Fin 2) * 1024 + 1 * o.val = o.val; rw [e1]; omega)
  rw [h]
  exact V_wr m c k o

theorem iblk_wi (c : Dev nD) (t : Fin cfg0.N) (k o : Fin 1024) :
    iblk m c 2 t (ix2 k o) = (m ((c : Thread nD τ).loc main_arg2) : S1024x1024.Idx → EReal) (ix2 o k) := by
  obtain ⟨-, -, -, -, e0, e1, -⟩ := block_positions t
  show V m c main_v3 (((cfg0.win 2).blk t).view.emb (ix2 k o)) = _
  have h : ((cfg0.win 2).blk t).view.emb (ix2 k o) = ix2 k o := funext fun a => Fin.ext (by
    match a with
    | ⟨0, _⟩ => show win0_2.index t (0 : Fin 2) * 1024 + 1 * k.val = k.val; rw [e0]; omega
    | ⟨1, _⟩ => show win0_2.index t (1 : Fin 2) * 1024 + 1 * o.val = o.val; rw [e1]; omega)
  rw [h]
  exact V_wi m c k o

theorem iblk_wj (c : Dev nD) (t : Fin cfg0.N) (k o : Fin 1024) :
    iblk m c 3 t (ix2 k o) = (m ((c : Thread nD τ).loc main_arg3) : S1024x1024.Idx → EReal) (ix2 o k) := by
  obtain ⟨-, -, -, -, -, -, e0, e1, -⟩ := block_positions t
  show V m c main_v5 (((cfg0.win 3).blk t).view.emb (ix2 k o)) = _
  have h : ((cfg0.win 3).blk t).view.emb (ix2 k o) = ix2 k o := funext fun a => Fin.ext (by
    match a with
    | ⟨0, _⟩ => show win0_3.index t (0 : Fin 2) * 1024 + 1 * k.val = k.val; rw [e0]; omega
    | ⟨1, _⟩ => show win0_3.index t (1 : Fin 2) * 1024 + 1 * o.val = o.val; rw [e1]; omega)
  rw [h]
  exact V_wj m c k o

theorem iblk_wk (c : Dev nD) (t : Fin cfg0.N) (k o : Fin 1024) :
    iblk m c 4 t (ix2 k o) = (m ((c : Thread nD τ).loc main_arg4) : S1024x1024.Idx → EReal) (ix2 o k) := by
  obtain ⟨-, -, -, -, -, -, -, -, e0, e1, -⟩ := block_positions t
  show V m c main_v7 (((cfg0.win 4).blk t).view.emb (ix2 k o)) = _
  have h : ((cfg0.win 4).blk t).view.emb (ix2 k o) = ix2 k o := funext fun a => Fin.ext (by
    match a with
    | ⟨0, _⟩ => show win0_4.index t (0 : Fin 2) * 1024 + 1 * k.val = k.val; rw [e0]; omega
    | ⟨1, _⟩ => show win0_4.index t (1 : Fin 2) * 1024 + 1 * o.val = o.val; rw [e1]; omega)
  rw [h]
  exact V_wk m c k o

theorem iblk_b (c : Dev nD) (t : Fin cfg0.N) (o : Fin 1024) :
    iblk m c 5 t (ix2 0 o) = (m ((c : Thread nD τ).loc main_arg5) : S1024.Idx → EReal) (ix1 o) := by
  obtain ⟨-, -, -, -, -, -, -, -, -, -, e0, e1, -⟩ := block_positions t
  show V m c main_v8 (((cfg0.win 5).blk t).view.emb (ix2 0 o)) = _
  have h : ((cfg0.win 5).blk t).view.emb (ix2 (0 : Fin 1) o) = ix2 0 o := funext fun a => Fin.ext (by
    match a with
    | ⟨0, _⟩ => show win0_5.index t (0 : Fin 2) * 1 + 1 * 0 = 0; rw [e0]
    | ⟨1, _⟩ => show win0_5.index t (1 : Fin 2) * 1024 + 1 * o.val = o.val; rw [e1]; omega)
  rw [h]
  exact V_b m c o

/-! ## What a point writes back, the cover, and the array after the run -/

/-- The result as a function of the argument arrays on core `c`. -/
def result (c : Dev nD) : Buf (Elt Ideal) ((c : Thread nD τ).loc main_v9) :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Point `t` writes back block `t` of the result. -/
theorem flushed_eq (c : Dev nD) (t : Fin cfg0.N) :
    (dats m 0 c).flushed 6 t = ((cfg0.win 6).blk t).view.read (Elt Ideal) (result m c) := by
  rw [Value.flushed6, out_eq_blockFn]
  obtain ⟨-, -, -, -, -, -, -, -, -, -, -, -, e0, e1⟩ := block_positions t
  funext y
  show blockFn (iblk m c 0 t) (iblk m c 1 t) (iblk m c 2 t) (iblk m c 3 t) (iblk m c 4 t) (iblk m c 5 t) y
    = result m c (((cfg0.win 6).blk t).view.emb y)
  exact blockFn_eq_G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (iblk m c 0 t) (iblk m c 1 t) (iblk m c 2 t) (iblk m c 3 t) (iblk m c 4 t) (iblk m c 5 t) t.val (point_lt t)
    (iblk_x m c t) (iblk_wr m c t) (iblk_wi m c t) (iblk_wj m c t) (iblk_wk m c t) (iblk_b m c t)
    y (((cfg0.win 6).blk t).view.emb y)
    (by show win0_6.index t (0 : Fin 2) * 256 + 1 * (y 0).val = t.val * 256 + (y 0).val; rw [e0]; omega)
    (by show win0_6.index t (1 : Fin 2) * 4096 + 1 * (y 1).val = (y 1).val; rw [e1]; omega)

/-- An index of the array is in point `t`'s block iff each coordinate is in the block's range on its axis. -/
theorem mem_block (t : Fin cfg0.N) (i : S8192x4096.Idx) :
    i ∈ ((cfg0.win 6).blk t).view.set ↔ ∀ a : Fin 2, win0_6.index t a * S256x4096.size a ≤ (i a).val
      ∧ (i a).val < win0_6.index t a * S256x4096.size a + S256x4096.size a := by
  show i ∈ ((View.whole main_v9).slice (win0_6.rect t)).set ↔ _
  rw [View.set_slice_whole, Rect.mem_set_unit]
  exact Iff.rfl

/-- Row `r` of the array lies in the block of point `r / 256`. -/
theorem cover (i : S8192x4096.Idx) : ∃ t : Fin cfg0.N, (cfg0.win 6).flush t = true ∧ i ∈ ((cfg0.win 6).blk t).view.set := by
  have h0 : (i 0).val < 8192 := (i 0).isLt
  have h1 : (i 1).val < 4096 := (i 1).isLt
  let t : Fin cfg0.N := ⟨(i 0).val / 256, by rw [show cfg0.N = 32 from N_0]; omega⟩
  obtain ⟨-, -, -, -, -, -, -, -, -, -, -, -, e0, e1⟩ := block_positions t
  refine ⟨t, flush0_6 t, ?_⟩
  rw [mem_block]
  intro a
  match a with
  | ⟨0, _⟩ =>
    show win0_6.index t (0 : Fin 2) * 256 ≤ (i 0).val ∧ (i 0).val < win0_6.index t (0 : Fin 2) * 256 + 256
    rw [e0]
    show (i 0).val / 256 * 256 ≤ (i 0).val ∧ (i 0).val < (i 0).val / 256 * 256 + 256
    omega
  | ⟨1, _⟩ =>
    show win0_6.index t (1 : Fin 2) * 4096 ≤ (i 1).val ∧ (i 1).val < win0_6.index t (1 : Fin 2) * 4096 + 4096
    rw [e1]
    omega

/-- After the run the result array is `G` of the argument arrays. -/
theorem final (c : Dev nD) : (dats m 0 c).arrAt 6 cfg0.N = result m c :=
  (dats m 0 c).arrAt_eq_of_cover 6 (result m c) (fun t _ => flushed_eq m c t) (cover)

/-- The kernel's run: every weakly fair execution terminates with the result array at `G` of the argument arrays,
    the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.Reference.lean ====
/-
  The reference read index by index: its result array is the function `G` of the specification.

  The reference views each row of the input as four quarters (a reshape to [8192, 4, 1024] and a transpose to
  [4, 8192, 1024]: entry `(c, r, k)` is the input at row `r`, feature `c * 1024 + k`), applies each weight matrix to all four
  quarters at once (a contraction over `k` against `W (o, k)`), adds the bias to the first product, and combines slices
  `[c]` of the four products with the signs of the Hamilton product; the four results are laid side by side along the
  features.
-/
import proofs.«144773_j16252156248077_2_alg».proof.Proof.Gen.ReferenceIdeal.Read
import proofs.«144773_j16252156248077_2_alg».proof.Proof.Spec
import Idealize.ShloMosaic.Lib.Pipeline.Value
import Idealize.ShloMosaic.Lib.ValueIdx

set_option maxRecDepth 16384

noncomputable section

namespace Cert.ReferenceIdeal.Hamilton

open Cert.ReferenceIdeal Cert.ReferenceIdeal.Gen Cert.ReferenceIdeal.Read Idealize.ShloMosaic Idealize.ShloMosaic.ValueIdx Cert.Hamilton

variable (x0 : (⟨S8192x4096, .f32⟩ : BufTy).Contents (Elt Ideal)) (x1 x2 x3 x4 : (⟨S1024x1024, .f32⟩ : BufTy).Contents (Elt Ideal))
  (x5 : (⟨S1024, .f32⟩ : BufTy).Contents (Elt Ideal))

/-! ## The four products, at quarter `c`, row `r`, output entry `o` -/

/-- The product with the real-part weights: the contraction over `k` of the input at row `r`, feature `c * 1024 + k`, with `W (o, k)`. -/
theorem dot_v2 (c : Fin 4) (r : Fin 8192) (o : Fin 1024) :
    val_main_v2 (F := Ideal) x0 x1 (ix3 c r o) = lin (fun n => x0 (ix2 r n)) (fun o k => x1 (ix2 o k)) c o := by
  rw [val_main_v2_apply]
  unfold lin
  refine Finset.sum_congr rfl fun k _ => ?_
  rw [val_main_v1_apply, val_main_v0_apply]
  have e0 : idx_main_v0 (idx_main_v1 (lidx_main_v2 (ix3 c r o) k)) = ix2 r (col c k) := funext fun a => Fin.ext (by
    have hc : c.val < 4 := c.isLt
    have hk : k.val < 1024 := k.isLt
    match a with
    | ⟨0, _⟩ => show ((r.val * 4 + c.val) * 1024 + k.val) / 4096 = r.val; omega
    | ⟨1, _⟩ => show ((r.val * 4 + c.val) * 1024 + k.val) % 4096 = c.val * 1024 + k.val; omega)
  have e1 : ridx_main_v2 (ix3 c r o) k = ix2 o k := funext fun a => Fin.ext (by
    match a with
    | ⟨0, _⟩ => rfl
    | ⟨1, _⟩ => rfl)
  rw [e0, e1]

/-- The product with the i-part weights: the contraction over `k` of the input at row `r`, feature `c * 1024 + k`, with `W (o, k)`. -/
theorem dot_v6 (c : Fin 4) (r : Fin 8192) (o : Fin 1024) :
    val_main_v6 (F := Ideal) x0 x2 (ix3 c r o) = lin (fun n => x0 (ix2 r n)) (fun o k => x2 (ix2 o k)) c o := by
  rw [val_main_v6_apply]
  unfold lin
  refine Finset.sum_congr rfl fun k _ => ?_
  rw [val_main_v1_apply, val_main_v0_apply]
  have e0 : idx_main_v0 (idx_main_v1 (lidx_main_v6 (ix3 c r o) k)) = ix2 r (col c k) := funext fun a => Fin.ext (by
    have hc : c.val < 4 := c.isLt
    have hk : k.val < 1024 := k.isLt
    match a with
    | ⟨0, _⟩ => show ((r.val * 4 + c.val) * 1024 + k.val) / 4096 = r.val; omega
    | ⟨1, _⟩ => show ((r.val * 4 + c.val) * 1024 + k.val) % 4096 = c.val * 1024 + k.val; omega)
  have e1 : ridx_main_v6 (ix3 c r o) k = ix2 o k := funext fun a => Fin.ext (by
    match a with
    | ⟨0, _⟩ => rfl
    | ⟨1, _⟩ => rfl)
  rw [e0, e1]

/-- The product with the j-part weights: the contraction over `k` of the input at row `r`, feature `c * 1024 + k`, with `W (o, k)`. -/
theorem dot_v7 (c : Fin 4) (r : Fin 8192) (o : Fin 1024) :
    val_main_v7 (F := Ideal) x0 x3 (ix3 c r o) = lin (fun n => x0 (ix2 r n)) (fun o k => x3 (ix2 o k)) c o := by
  rw [val_main_v7_apply]
  unfold lin
  refine Finset.sum_congr rfl fun k _ => ?_
  rw [val_main_v1_apply, val_main_v0_apply]
  have e0 : idx_main_v0 (idx_main_v1 (lidx_main_v7 (ix3 c r o) k)) = ix2 r (col c k) := funext fun a => Fin.ext (by
    have hc : c.val < 4 := c.isLt
    have hk : k.val < 1024 := k.isLt
    match a with
    | ⟨0, _⟩ => show ((r.val * 4 + c.val) * 1024 + k.val) / 4096 = r.val; omega
    | ⟨1, _⟩ => show ((r.val * 4 + c.val) * 1024 + k.val) % 4096 = c.val * 1024 + k.val; omega)
  have e1 : ridx_main_v7 (ix3 c r o) k = ix2 o k := funext fun a => Fin.ext (by
    match a with
    | ⟨0, _⟩ => rfl
    | ⟨1, _⟩ => rfl)
  rw [e0, e1]

/-- The product with the k-part weights: the contraction over `k` of the input at row `r`, feature `c * 1024 + k`, with `W (o, k)`. -/
theorem dot_v8 (c : Fin 4) (r : Fin 8192) (o : Fin 1024) :
    val_main_v8 (F := Ideal) x0 x4 (ix3 c r o) = lin (fun n => x0 (ix2 r n)) (fun o k => x4 (ix2 o k)) c o := by
  rw [val_main_v8_apply]
  unfold lin
  refine Finset.sum_congr rfl fun k _ => ?_
  rw [val_main_v1_apply, val_main_v0_apply]
  have e0 : idx_main_v0 (idx_main_v1 (lidx_main_v8 (ix3 c r o) k)) = ix2 r (col c k) := funext fun a => Fin.ext (by
    have hc : c.val < 4 := c.isLt
    have hk : k.val < 1024 := k.isLt
    match a with
    | ⟨0, _⟩ => show ((r.val * 4 + c.val) * 1024 + k.val) / 4096 = r.val; omega
    | ⟨1, _⟩ => show ((r.val * 4 + c.val) * 1024 + k.val) % 4096 = c.val * 1024 + k.val; omega)
  have e1 : ridx_main_v8 (ix3 c r o) k = ix2 o k := funext fun a => Fin.ext (by
    match a with
    | ⟨0, _⟩ => rfl
    | ⟨1, _⟩ => rfl)
  rw [e0, e1]

/-- The bias, broadcast over quarters and rows. -/
theorem bias_v4 (c : Fin 4) (r : Fin 8192) (o : Fin 1024) : val_main_v4 (F := Ideal) x5 (ix3 c r o) = x5 (ix1 o) := by
  rw [val_main_v4_apply, val_main_v3_apply]
  exact congrArg x5 (funext fun a => Fin.ext (by
    match a with
    | ⟨0, _⟩ => rfl))

/-- The real-part product with the bias added. -/
theorem dot_v5 (c : Fin 4) (r : Fin 8192) (o : Fin 1024) :
    val_main_v5 (F := Ideal) x0 x1 x5 (ix3 c r o) = lin (fun n => x0 (ix2 r n)) (fun o k => x1 (ix2 o k)) c o + x5 (ix1 o) := by
  rw [val_main_v5_apply, dot_v2, bias_v4]
  rfl

/-! ## The slices: quarter `c` of a product, as a [8192, 1024] array -/

theorem slice_v10 (r : Fin 8192) (o : Fin 1024) :
    val_main_v10 (F := Ideal) x0 x1 x5 (ix2 r o) = val_main_v5 (F := Ideal) x0 x1 x5 (ix3 q0 r o) := by
  rw [val_main_v10_apply, val_main_v9_apply]
  exact congrArg _ (funext fun a => Fin.ext (by
    have h0 : r.val < 8192 := r.isLt
    have h1 : o.val < 1024 := o.isLt
    match a with
    | ⟨0, _⟩ => show 0 + 0 = 0; rfl
    | ⟨1, _⟩ => show (r.val * 1024 + o.val) / 1024 % 8192 = r.val; omega
    | ⟨2, _⟩ => show (r.val * 1024 + o.val) % 1024 = o.val; omega))

theorem slice_v12 (r : Fin 8192) (o : Fin 1024) :
    val_main_v12 (F := Ideal) x0 x2 (ix2 r o) = val_main_v6 (F := Ideal) x0 x2 (ix3 q1 r o) := by
  rw [val_main_v12_apply, val_main_v11_apply]
  exact congrArg _ (funext fun a => Fin.ext (by
    have h0 : r.val < 8192 := r.isLt
    have h1 : o.val < 1024 := o.isLt
    match a with
    | ⟨0, _⟩ => show 1 + 0 = 1; rfl
    | ⟨1, _⟩ => show (r.val * 1024 + o.val) / 1024 % 8192 = r.val; omega
    | ⟨2, _⟩ => show (r.val * 1024 + o.val) % 1024 = o.val; omega))

theorem slice_v15 (r : Fin 8192) (o : Fin 1024) :
    val_main_v15 (F := Ideal) x0 x3 (ix2 r o) = val_main_v7 (F := Ideal) x0 x3 (ix3 q2 r o) := by
  rw [val_main_v15_apply, val_main_v14_apply]
  exact congrArg _ (funext fun a => Fin.ext (by
    have h0 : r.val < 8192 := r.isLt
    have h1 : o.val < 1024 := o.isLt
    match a with
    | ⟨0, _⟩ => show 2 + 0 = 2; rfl
    | ⟨1, _⟩ => show (r.val * 1024 + o.val) / 1024 % 8192 = r.val; omega
    | ⟨2, _⟩ => show (r.val * 1024 + o.val) % 1024 = o.val; omega))

theorem slice_v18 (r : Fin 8192) (o : Fin 1024) :
    val_main_v18 (F := Ideal) x0 x4 (ix2 r o) = val_main_v8 (F := Ideal) x0 x4 (ix3 q3 r o) := by
  rw [val_main_v18_apply, val_main_v17_apply]
  exact congrArg _ (funext fun a => Fin.ext (by
    have h0 : r.val < 8192 := r.isLt
    have h1 : o.val < 1024 := o.isLt
    match a with
    | ⟨0, _⟩ => show 3 + 0 = 3; rfl
    | ⟨1, _⟩ => show (r.val * 1024 + o.val) / 1024 % 8192 = r.val; omega
    | ⟨2, _⟩ => show (r.val * 1024 + o.val) % 1024 = o.val; omega))

theorem slice_v21 (r : Fin 8192) (o : Fin 1024) :
    val_main_v21 (F := Ideal) x0 x2 (ix2 r o) = val_main_v6 (F := Ideal) x0 x2 (ix3 q0 r o) := by
  rw [val_main_v21_apply, val_main_v20_apply]
  exact congrArg _ (funext fun a => Fin.ext (by
    have h0 : r.val < 8192 := r.isLt
    have h1 : o.val < 1024 := o.isLt
    match a with
    | ⟨0, _⟩ => show 0 + 0 = 0; rfl
    | ⟨1, _⟩ => show (r.val * 1024 + o.val) / 1024 % 8192 = r.val; omega
    | ⟨2, _⟩ => show (r.val * 1024 + o.val) % 1024 = o.val; omega))

theorem slice_v23 (r : Fin 8192) (o : Fin 1024) :
    val_main_v23 (F := Ideal) x0 x1 x5 (ix2 r o) = val_main_v5 (F := Ideal) x0 x1 x5 (ix3 q1 r o) := by
  rw [val_main_v23_apply, val_main_v22_apply]
  exact congrArg _ (funext fun a => Fin.ext (by
    have h0 : r.val < 8192 := r.isLt
    have h1 : o.val < 1024 := o.isLt
    match a with
    | ⟨0, _⟩ => show 1 + 0 = 1; rfl
    | ⟨1, _⟩ => show (r.val * 1024 + o.val) / 1024 % 8192 = r.val; omega
    | ⟨2, _⟩ => show (r.val * 1024 + o.val) % 1024 = o.val; omega))

theorem slice_v26 (r : Fin 8192) (o : Fin 1024) :
    val_main_v26 (F := Ideal) x0 x4 (ix2 r o) = val_main_v8 (F := Ideal) x0 x4 (ix3 q2 r o) := by
  rw [val_main_v26_apply, val_main_v25_apply]
  exact congrArg _ (funext fun a => Fin.ext (by
    have h0 : r.val < 8192 := r.isLt
    have h1 : o.val < 1024 := o.isLt
    match a with
    | ⟨0, _⟩ => show 2 + 0 = 2; rfl
    | ⟨1, _⟩ => show (r.val * 1024 + o.val) / 1024 % 8192 = r.val; omega
    | ⟨2, _⟩ => show (r.val * 1024 + o.val) % 1024 = o.val; omega))

theorem slice_v29 (r : Fin 8192) (o : Fin 1024) :
    val_main_v29 (F := Ideal) x0 x3 (ix2 r o) = val_main_v7 (F := Ideal) x0 x3 (ix3 q3 r o) := by
  rw [val_main_v29_apply, val_main_v28_apply]
  exact congrArg _ (funext fun a => Fin.ext (by
    have h0 : r.val < 8192 := r.isLt
    have h1 : o.val < 1024 := o.isLt
    match a with
    | ⟨0, _⟩ => show 3 + 0 = 3; rfl
    | ⟨1, _⟩ => show (r.val * 1024 + o.val) / 1024 % 8192 = r.val; omega
    | ⟨2, _⟩ => show (r.val * 1024 + o.val) % 1024 = o.val; omega))

theorem slice_v32 (r : Fin 8192) (o : Fin 1024) :
    val_main_v32 (F := Ideal) x0 x3 (ix2 r o) = val_main_v7 (F := Ideal) x0 x3 (ix3 q0 r o) := by
  rw [val_main_v32_apply, val_main_v31_apply]
  exact congrArg _ (funext fun a => Fin.ext (by
    have h0 : r.val < 8192 := r.isLt
    have h1 : o.val < 1024 := o.isLt
    match a with
    | ⟨0, _⟩ => show 0 + 0 = 0; rfl
    | ⟨1, _⟩ => show (r.val * 1024 + o.val) / 1024 % 8192 = r.val; omega
    | ⟨2, _⟩ => show (r.val * 1024 + o.val) % 1024 = o.val; omega))

theorem slice_v34 (r : Fin 8192) (o : Fin 1024) :
    val_main_v34 (F := Ideal) x0 x4 (ix2 r o) = val_main_v8 (F := Ideal) x0 x4 (ix3 q1 r o) := by
  rw [val_main_v34_apply, val_main_v33_apply]
  exact congrArg _ (funext fun a => Fin.ext (by
    have h0 : r.val < 8192 := r.isLt
    have h1 : o.val < 1024 := o.isLt
    match a with
    | ⟨0, _⟩ => show 1 + 0 = 1; rfl
    | ⟨1, _⟩ => show (r.val * 1024 + o.val) / 1024 % 8192 = r.val; omega
    | ⟨2, _⟩ => show (r.val * 1024 + o.val) % 1024 = o.val; omega))

theorem slice_v37 (r : Fin 8192) (o : Fin 1024) :
    val_main_v37 (F := Ideal) x0 x1 x5 (ix2 r o) = val_main_v5 (F := Ideal) x0 x1 x5 (ix3 q2 r o) := by
  rw [val_main_v37_apply, val_main_v36_apply]
  exact congrArg _ (funext fun a => Fin.ext (by
    have h0 : r.val < 8192 := r.isLt
    have h1 : o.val < 1024 := o.isLt
    match a with
    | ⟨0, _⟩ => show 2 + 0 = 2; rfl
    | ⟨1, _⟩ => show (r.val * 1024 + o.val) / 1024 % 8192 = r.val; omega
    | ⟨2, _⟩ => show (r.val * 1024 + o.val) % 1024 = o.val; omega))

theorem slice_v40 (r : Fin 8192) (o : Fin 1024) :
    val_main_v40 (F := Ideal) x0 x2 (ix2 r o) = val_main_v6 (F := Ideal) x0 x2 (ix3 q3 r o) := by
  rw [val_main_v40_apply, val_main_v39_apply]
  exact congrArg _ (funext fun a => Fin.ext (by
    have h0 : r.val < 8192 := r.isLt
    have h1 : o.val < 1024 := o.isLt
    match a with
    | ⟨0, _⟩ => show 3 + 0 = 3; rfl
    | ⟨1, _⟩ => show (r.val * 1024 + o.val) / 1024 % 8192 = r.val; omega
    | ⟨2, _⟩ => show (r.val * 1024 + o.val) % 1024 = o.val; omega))

theorem slice_v43 (r : Fin 8192) (o : Fin 1024) :
    val_main_v43 (F := Ideal) x0 x4 (ix2 r o) = val_main_v8 (F := Ideal) x0 x4 (ix3 q0 r o) := by
  rw [val_main_v43_apply, val_main_v42_apply]
  exact congrArg _ (funext fun a => Fin.ext (by
    have h0 : r.val < 8192 := r.isLt
    have h1 : o.val < 1024 := o.isLt
    match a with
    | ⟨0, _⟩ => show 0 + 0 = 0; rfl
    | ⟨1, _⟩ => show (r.val * 1024 + o.val) / 1024 % 8192 = r.val; omega
    | ⟨2, _⟩ => show (r.val * 1024 + o.val) % 1024 = o.val; omega))

theorem slice_v45 (r : Fin 8192) (o : Fin 1024) :
    val_main_v45 (F := Ideal) x0 x3 (ix2 r o) = val_main_v7 (F := Ideal) x0 x3 (ix3 q1 r o) := by
  rw [val_main_v45_apply, val_main_v44_apply]
  exact congrArg _ (funext fun a => Fin.ext (by
    have h0 : r.val < 8192 := r.isLt
    have h1 : o.val < 1024 := o.isLt
    match a with
    | ⟨0, _⟩ => show 1 + 0 = 1; rfl
    | ⟨1, _⟩ => show (r.val * 1024 + o.val) / 1024 % 8192 = r.val; omega
    | ⟨2, _⟩ => show (r.val * 1024 + o.val) % 1024 = o.val; omega))

theorem slice_v48 (r : Fin 8192) (o : Fin 1024) :
    val_main_v48 (F := Ideal) x0 x2 (ix2 r o) = val_main_v6 (F := Ideal) x0 x2 (ix3 q2 r o) := by
  rw [val_main_v48_apply, val_main_v47_apply]
  exact congrArg _ (funext fun a => Fin.ext (by
    have h0 : r.val < 8192 := r.isLt
    have h1 : o.val < 1024 := o.isLt
    match a with
    | ⟨0, _⟩ => show 2 + 0 = 2; rfl
    | ⟨1, _⟩ => show (r.val * 1024 + o.val) / 1024 % 8192 = r.val; omega
    | ⟨2, _⟩ => show (r.val * 1024 + o.val) % 1024 = o.val; omega))

theorem slice_v51 (r : Fin 8192) (o : Fin 1024) :
    val_main_v51 (F := Ideal) x0 x1 x5 (ix2 r o) = val_main_v5 (F := Ideal) x0 x1 x5 (ix3 q3 r o) := by
  rw [val_main_v51_apply, val_main_v50_apply]
  exact congrArg _ (funext fun a => Fin.ext (by
    have h0 : r.val < 8192 := r.isLt
    have h1 : o.val < 1024 := o.isLt
    match a with
    | ⟨0, _⟩ => show 3 + 0 = 3; rfl
    | ⟨1, _⟩ => show (r.val * 1024 + o.val) / 1024 % 8192 = r.val; omega
    | ⟨2, _⟩ => show (r.val * 1024 + o.val) % 1024 = o.val; omega))

/-! ## The four quarters of the result -/

/-- Quarter 0: `Rr 0 − Ri 1 − Rj 2 − Rk 3`. -/
theorem out_q0 (r : Fin 8192) (o : Fin 1024) :
    val_main_v19 (F := Ideal) x0 x1 x2 x3 x4 x5 (ix2 r o)
      = comp (fun n => x0 (ix2 r n)) (fun o k => x1 (ix2 o k)) (fun o k => x2 (ix2 o k)) (fun o k => x3 (ix2 o k))
        (fun o k => x4 (ix2 o k)) (fun o => x5 (ix1 o)) q0 o := by
  rw [comp_q0, val_main_v19_apply, val_main_v16_apply, val_main_v13_apply, slice_v10, slice_v12, slice_v15, slice_v18,
    dot_v5, dot_v6, dot_v7, dot_v8]
  rfl

/-- Quarter 1: `Ri 0 + Rr 1 + Rk 2 − Rj 3`. -/
theorem out_q1 (r : Fin 8192) (o : Fin 1024) :
    val_main_v30 (F := Ideal) x0 x1 x2 x3 x4 x5 (ix2 r o)
      = comp (fun n => x0 (ix2 r n)) (fun o k => x1 (ix2 o k)) (fun o k => x2 (ix2 o k)) (fun o k => x3 (ix2 o k))
        (fun o k => x4 (ix2 o k)) (fun o => x5 (ix1 o)) q1 o := by
  rw [comp_q1, val_main_v30_apply, val_main_v27_apply, val_main_v24_apply, slice_v21, slice_v23, slice_v26, slice_v29,
    dot_v5, dot_v6, dot_v7, dot_v8]
  rfl

/-- Quarter 2: `Rj 0 − Rk 1 + Rr 2 + Ri 3`. -/
theorem out_q2 (r : Fin 8192) (o : Fin 1024) :
    val_main_v41 (F := Ideal) x0 x1 x2 x3 x4 x5 (ix2 r o)
      = comp (fun n => x0 (ix2 r n)) (fun o k => x1 (ix2 o k)) (fun o k => x2 (ix2 o k)) (fun o k => x3 (ix2 o k))
        (fun o k => x4 (ix2 o k)) (fun o => x5 (ix1 o)) q2 o := by
  rw [comp_q2, val_main_v41_apply, val_main_v38_apply, val_main_v35_apply, slice_v32, slice_v34, slice_v37, slice_v40,
    dot_v5, dot_v6, dot_v7, dot_v8]
  rfl

/-- Quarter 3: `Rk 0 + Rj 1 − Ri 2 + Rr 3`. -/
theorem out_q3 (r : Fin 8192) (o : Fin 1024) :
    val_main_v52 (F := Ideal) x0 x1 x2 x3 x4 x5 (ix2 r o)
      = comp (fun n => x0 (ix2 r n)) (fun o k => x1 (ix2 o k)) (fun o k => x2 (ix2 o k)) (fun o k => x3 (ix2 o k))
        (fun o k => x4 (ix2 o k)) (fun o => x5 (ix1 o)) q3 o := by
  rw [comp_q3, val_main_v52_apply, val_main_v49_apply, val_main_v46_apply, slice_v43, slice_v45, slice_v48, slice_v51,
    dot_v5, dot_v6, dot_v7, dot_v8]
  rfl

/-! ## The four quarters side by side -/

/-- At row `r`, feature `0 * 1024 + o`, the concatenation reads its piece 0 at `(r, o)`. -/
theorem result_q0 (r : Fin 8192) (n : Fin 4096) (o : Fin 1024) (h : n.val = 0 + o.val) :
    val_main_v53 (F := Ideal) x0 x1 x2 x3 x4 x5 (ix2 r n)
      = comp (fun n => x0 (ix2 r n)) (fun o k => x1 (ix2 o k)) (fun o k => x2 (ix2 o k)) (fun o k => x3 (ix2 o k))
          (fun o k => x4 (ix2 o k)) (fun o => x5 (ix1 o)) q0 o := by
  unfold val_main_v53
  rw [concatenate_apply_piece (α := Elt Ideal .f32) (1 : Fin S8192x4096.rank)
    [⟨S8192x1024, val_main_v19 (F := Ideal) x0 x1 x2 x3 x4 x5⟩, ⟨S8192x1024, val_main_v30 (F := Ideal) x0 x1 x2 x3 x4 x5⟩, ⟨S8192x1024, val_main_v41 (F := Ideal) x0 x1 x2 x3 x4 x5⟩, ⟨S8192x1024, val_main_v52 (F := Ideal) x0 x1 x2 x3 x4 x5⟩]
    concatenates_S8192x1024_S8192x1024_S8192x1024_S8192x1024_S8192x4096_d1 (ix2 r n) 0 (by show (0 : Nat) < 4; omega) S8192x1024
    (val_main_v19 (F := Ideal) x0 x1 x2 x3 x4 x5) rfl rfl 0 rfl (ix2 r o)
    (fun b hb => by
      match b with
      | ⟨0, _⟩ => rfl
      | ⟨1, _⟩ => exact absurd rfl hb)
    (by show 0 + o.val = n.val; omega)]
  exact out_q0 x0 x1 x2 x3 x4 x5 r o

/-- At row `r`, feature `1 * 1024 + o`, the concatenation reads its piece 1 at `(r, o)`. -/
theorem result_q1 (r : Fin 8192) (n : Fin 4096) (o : Fin 1024) (h : n.val = 1024 + o.val) :
    val_main_v53 (F := Ideal) x0 x1 x2 x3 x4 x5 (ix2 r n)
      = comp (fun n => x0 (ix2 r n)) (fun o k => x1 (ix2 o k)) (fun o k => x2 (ix2 o k)) (fun o k => x3 (ix2 o k))
          (fun o k => x4 (ix2 o k)) (fun o => x5 (ix1 o)) q1 o := by
  unfold val_main_v53
  rw [concatenate_apply_piece (α := Elt Ideal .f32) (1 : Fin S8192x4096.rank)
    [⟨S8192x1024, val_main_v19 (F := Ideal) x0 x1 x2 x3 x4 x5⟩, ⟨S8192x1024, val_main_v30 (F := Ideal) x0 x1 x2 x3 x4 x5⟩, ⟨S8192x1024, val_main_v41 (F := Ideal) x0 x1 x2 x3 x4 x5⟩, ⟨S8192x1024, val_main_v52 (F := Ideal) x0 x1 x2 x3 x4 x5⟩]
    concatenates_S8192x1024_S8192x1024_S8192x1024_S8192x1024_S8192x4096_d1 (ix2 r n) 1 (by show (1 : Nat) < 4; omega) S8192x1024
    (val_main_v30 (F := Ideal) x0 x1 x2 x3 x4 x5) rfl rfl 1024 rfl (ix2 r o)
    (fun b hb => by
      match b with
      | ⟨0, _⟩ => rfl
      | ⟨1, _⟩ => exact absurd rfl hb)
    (by show 1024 + o.val = n.val; omega)]
  exact out_q1 x0 x1 x2 x3 x4 x5 r o

/-- At row `r`, feature `2 * 1024 + o`, the concatenation reads its piece 2 at `(r, o)`. -/
theorem result_q2 (r : Fin 8192) (n : Fin 4096) (o : Fin 1024) (h : n.val = 2048 + o.val) :
    val_main_v53 (F := Ideal) x0 x1 x2 x3 x4 x5 (ix2 r n)
      = comp (fun n => x0 (ix2 r n)) (fun o k => x1 (ix2 o k)) (fun o k => x2 (ix2 o k)) (fun o k => x3 (ix2 o k))
          (fun o k => x4 (ix2 o k)) (fun o => x5 (ix1 o)) q2 o := by
  unfold val_main_v53
  rw [concatenate_apply_piece (α := Elt Ideal .f32) (1 : Fin S8192x4096.rank)
    [⟨S8192x1024, val_main_v19 (F := Ideal) x0 x1 x2 x3 x4 x5⟩, ⟨S8192x1024, val_main_v30 (F := Ideal) x0 x1 x2 x3 x4 x5⟩, ⟨S8192x1024, val_main_v41 (F := Ideal) x0 x1 x2 x3 x4 x5⟩, ⟨S8192x1024, val_main_v52 (F := Ideal) x0 x1 x2 x3 x4 x5⟩]
    concatenates_S8192x1024_S8192x1024_S8192x1024_S8192x1024_S8192x4096_d1 (ix2 r n) 2 (by show (2 : Nat) < 4; omega) S8192x1024
    (val_main_v41 (F := Ideal) x0 x1 x2 x3 x4 x5) rfl rfl 2048 rfl (ix2 r o)
    (fun b hb => by
      match b with
      | ⟨0, _⟩ => rfl
      | ⟨1, _⟩ => exact absurd rfl hb)
    (by show 2048 + o.val = n.val; omega)]
  exact out_q2 x0 x1 x2 x3 x4 x5 r o

/-- At row `r`, feature `3 * 1024 + o`, the concatenation reads its piece 3 at `(r, o)`. -/
theorem result_q3 (r : Fin 8192) (n : Fin 4096) (o : Fin 1024) (h : n.val = 3072 + o.val) :
    val_main_v53 (F := Ideal) x0 x1 x2 x3 x4 x5 (ix2 r n)
      = comp (fun n => x0 (ix2 r n)) (fun o k => x1 (ix2 o k)) (fun o k => x2 (ix2 o k)) (fun o k => x3 (ix2 o k))
          (fun o k => x4 (ix2 o k)) (fun o => x5 (ix1 o)) q3 o := by
  unfold val_main_v53
  rw [concatenate_apply_piece (α := Elt Ideal .f32) (1 : Fin S8192x4096.rank)
    [⟨S8192x1024, val_main_v19 (F := Ideal) x0 x1 x2 x3 x4 x5⟩, ⟨S8192x1024, val_main_v30 (F := Ideal) x0 x1 x2 x3 x4 x5⟩, ⟨S8192x1024, val_main_v41 (F := Ideal) x0 x1 x2 x3 x4 x5⟩, ⟨S8192x1024, val_main_v52 (F := Ideal) x0 x1 x2 x3 x4 x5⟩]
    concatenates_S8192x1024_S8192x1024_S8192x1024_S8192x1024_S8192x4096_d1 (ix2 r n) 3 (by show (3 : Nat) < 4; omega) S8192x1024
    (val_main_v52 (F := Ideal) x0 x1 x2 x3 x4 x5) rfl rfl 3072 rfl (ix2 r o)
    (fun b hb => by
      match b with
      | ⟨0, _⟩ => rfl
      | ⟨1, _⟩ => exact absurd rfl hb)
    (by show 3072 + o.val = n.val; omega)]
  exact out_q3 x0 x1 x2 x3 x4 x5 r o

/-- The reference's result array is `G` of its argument arrays. -/
theorem result_eq_G : val_main_v53 (F := Ideal) x0 x1 x2 x3 x4 x5 = G x0 x1 x2 x3 x4 x5 := by
  funext j
  obtain ⟨r, n, rfl⟩ : ∃ (r : Fin 8192) (n : Fin 4096), j = ix2 r n := ⟨j 0, j 1, eq_ix2 j⟩
  have hn : n.val < 4096 := n.isLt
  have ho : (entry n).val = n.val % 1024 := rfl
  rcases (by omega : n.val / 1024 = 0 ∨ n.val / 1024 = 1 ∨ n.val / 1024 = 2 ∨ n.val / 1024 = 3) with hq | hq | hq | hq
  · rw [result_q0 x0 x1 x2 x3 x4 x5 r n (entry n) (by omega),
      G_at x0 x1 x2 x3 x4 x5 (ix2 r n) r q0 (entry n) rfl (by show n.val = 0 * 1024 + (entry n).val; omega)]
  · rw [result_q1 x0 x1 x2 x3 x4 x5 r n (entry n) (by omega),
      G_at x0 x1 x2 x3 x4 x5 (ix2 r n) r q1 (entry n) rfl (by show n.val = 1 * 1024 + (entry n).val; omega)]
  · rw [result_q2 x0 x1 x2 x3 x4 x5 r n (entry n) (by omega),
      G_at x0 x1 x2 x3 x4 x5 (ix2 r n) r q2 (entry n) rfl (by show n.val = 2 * 1024 + (entry n).val; omega)]
  · rw [result_q3 x0 x1 x2 x3 x4 x5 r n (entry n) (by omega),
      G_at x0 x1 x2 x3 x4 x5 (ix2 r n) r q3 (entry n) rfl (by show n.val = 3 * 1024 + (entry n).val; omega)]

end Cert.ReferenceIdeal.Hamilton

end
-- ==== Proof.lean ====
/-
  The certificate of a quaternion-valued dense layer.

  The input `x` is [8192, 4096]: each row is a quaternion-valued vector of 1024 entries, its four components the four
  quarters of 1024 features. The layer has four real weight matrices `W_rr, W_ri, W_rj, W_rk` (each [1024, 1024]) and a
  bias on the real part; with `R_w c = x_c · Wᵀ_w` (and the bias added to `R_r`), the output's four quarters are the
  components of the Hamilton product,

    out_r = R_r 0 − R_i 1 − R_j 2 − R_k 3,     out_i = R_i 0 + R_r 1 + R_k 2 − R_j 3,
    out_j = R_j 0 − R_k 1 + R_r 2 + R_i 3,     out_k = R_k 0 + R_j 1 − R_i 2 + R_r 3.

  The kernel computes this 256 rows at a time (32 grid points), with the weights transposed and rounded to bf16 on the
  host beforehand and sixteen [256, 1024] × [1024, 1024] products per block, accumulated into four running sums that start
  at zero; the reference applies each weight matrix to all four quarters at once by one contraction, and combines
  slices. At the ideal instance the rounding is the identity and each product is the same sum of the same products in
  both programs, the additions and subtractions come in the same order, and the kernel's `0 + x` is `x`: the two
  results are the same function `Cert.Hamilton.G` of the arguments (Proof/Spec.lean), with no use of finiteness.

  Proof/Body.lean reads the kernel's body at an index, Proof/Whole.lean assembles the 32 blocks into the array,
  Proof/Reference.lean reads the reference's operations at an index. The three frames are the generated frame
  certificates and the generated reference run; the idealization rewrote nothing, so `preserves` is `True`.
-/
import proofs.«144773_j16252156248077_2_alg».proof.Defs
import proofs.«144773_j16252156248077_2_alg».proof.Proof.Gen.Kernel
import proofs.«144773_j16252156248077_2_alg».proof.Proof.Gen.Kernel.Skeleton
import proofs.«144773_j16252156248077_2_alg».proof.Proof.Gen.Kernel.Launch
import proofs.«144773_j16252156248077_2_alg».proof.Proof.Gen.Kernel.Points
import proofs.«144773_j16252156248077_2_alg».proof.Proof.Gen.Kernel.Frame
import proofs.«144773_j16252156248077_2_alg».proof.Proof.Gen.KernelIdeal
import proofs.«144773_j16252156248077_2_alg».proof.Proof.Gen.KernelIdeal.Skeleton
import proofs.«144773_j16252156248077_2_alg».proof.Proof.Gen.KernelIdeal.Launch
import proofs.«144773_j16252156248077_2_alg».proof.Proof.Gen.KernelIdeal.Points
import proofs.«144773_j16252156248077_2_alg».proof.Proof.Gen.KernelIdeal.Frame
import proofs.«144773_j16252156248077_2_alg».proof.Proof.Gen.ReferenceIdeal
import proofs.«144773_j16252156248077_2_alg».proof.Proof.Gen.KernelIdeal.Value
import proofs.«144773_j16252156248077_2_alg».proof.Proof.Gen.ReferenceIdeal.Run
import proofs.«144773_j16252156248077_2_alg».proof.Proof.Gen.ReferenceIdeal.Read
import proofs.«144773_j16252156248077_2_alg».proof.Proof.Gen.Pre_finite_inputs
import proofs.«144773_j16252156248077_2_alg».proof.Proof.Whole
import proofs.«144773_j16252156248077_2_alg».proof.Proof.Reference
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel at the ideal instance. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at `G` of the argument arrays, on which the two memories agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5⟩ := hagree c
  rw [(h c).1, Cert.ReferenceIdeal.Read.val_main_v53_eq, Cert.ReferenceIdeal.Hamilton.result_eq_G, a0, a1, a2, a3, a4, a5]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
